-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x8 : Shape := ⟨3, ![16, 8192, 8]⟩
abbrev S8x64 : Shape := ⟨2, ![8, 64]⟩
abbrev S_ : Shape := ⟨0, ![]⟩

class Facts : Prop where
  bcast_S_S16x8192x8 : S_.BroadcastsInDim S16x8192x8 (![] : Fin 0 → Fin S16x8192x8.rank)
  reducesTo_S16x8192x8_S_d0_1_2 : S16x8192x8.ReducesTo [0, 1, 2] S_
  h_S_ : 0 < S_.numel
  bcast_S_S8x64 : S_.BroadcastsInDim S8x64 (![] : Fin 0 → Fin S8x64.rank)
  reducesTo_S8x64_S_d0_1 : S8x64.ReducesTo [0, 1] S_

variable [Facts]

def fn {F : FTy → Type} [FloatOps F] (main_arg0 : FVec F S16x8192x8 .f32) (main_arg1 : FVec F S8x64 .f32) (main_arg2 : FVec F S8x64 .f32) : IVec S_ 1 :=
  let main_v0 : FVec F S16x8192x8 .f32 := Host.absf main_arg0
  let main_cst : FVec F S_ .f32 := constant S_ .f32 0x7F800000#32
  let main_v1 : FVec F S16x8192x8 .f32 := broadcastInDim S16x8192x8 ![] bcast_S_S16x8192x8 main_cst
  let main_v2 : IVec S16x8192x8 1 := cmpf .olt main_v0 main_v1
  let main_c : IVec S_ 1 := constantI S_ 1 1#1
  let main_v3 : IVec S_ 1 := (fun x v => Host.reduce IntOp.andi x v reducesTo_S16x8192x8_S_d0_1_2 h_S_) main_v2 main_c
  let main_v4 : FVec F S8x64 .f32 := Host.absf main_arg1
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S8x64 .f32 := Host.absf main_arg2
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  main_v13
-- ==== Kernel.lean ====
abbrev S16x8192x8 : Shape := ⟨3, ![16, 8192, 8]⟩
abbrev S8x64 : Shape := ⟨2, ![8, 64]⟩
abbrev S131072x8 : Shape := ⟨2, ![131072, 8]⟩
abbrev S131072x512 : Shape := ⟨2, ![131072, 512]⟩
abbrev S2048x8 : Shape := ⟨2, ![2048, 8]⟩
abbrev S2048x512 : Shape := ⟨2, ![2048, 512]⟩
abbrev S2048x8x1 : Shape := ⟨3, ![2048, 8, 1]⟩
abbrev S1x8x64 : Shape := ⟨3, ![1, 8, 64]⟩
abbrev S2048x8x64 : Shape := ⟨3, ![2048, 8, 64]⟩
abbrev S2048x8x63 : Shape := ⟨3, ![2048, 8, 63]⟩
abbrev S16x8192x512 : Shape := ⟨3, ![16, 8192, 512]⟩

abbrev nBuf : Space → Nat
  | .hbm => 6
  | .vmem => 6
  | .smem => 0
  | _ => 0

abbrev bufTy : (tb : Table) → Fin (tcTables nBuf tb) → BufTy
  | .hbm, ⟨0, _⟩ => ⟨S16x8192x8, .f32⟩
  | .hbm, ⟨1, _⟩ => ⟨S8x64, .f32⟩
  | .hbm, ⟨2, _⟩ => ⟨S8x64, .f32⟩
  | .hbm, ⟨3, _⟩ => ⟨S131072x8, .f32⟩
  | .hbm, ⟨4, _⟩ => ⟨S131072x512, .f32⟩
  | .hbm, ⟨5, _⟩ => ⟨S16x8192x512, .f32⟩
  | .local _ .vmem, ⟨0, _⟩ => ⟨S2048x8, .f32⟩
  | .local _ .vmem, ⟨1, _⟩ => ⟨S2048x8, .f32⟩
  | .local _ .vmem, ⟨2, _⟩ => ⟨S8x64, .f32⟩
  | .local _ .vmem, ⟨3, _⟩ => ⟨S8x64, .f32⟩
  | .local _ .vmem, ⟨4, _⟩ => ⟨S2048x512, .f32⟩
  | .local _ .vmem, ⟨5, _⟩ => ⟨S2048x512, .f32⟩
  | _, _ => ⟨S16x8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x8192x8_S131072x8 : S16x8192x8.ShapeCasts S131072x8
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S8x64_S8x64_0_0 : ∀ a, (![0, 0] : Fin 2 → Nat) a + S8x64.size a ≤ S8x64.size a
  h_S8x64 : 0 < S8x64.numel
  shapeCasts_S2048x8_S2048x8x1 : S2048x8.ShapeCasts S2048x8x1
  shapeCasts_S8x64_S1x8x64 : S8x64.ShapeCasts S1x8x64
  broadcasts_S2048x8x1_S2048x8x64 : S2048x8x1.Broadcasts S2048x8x64
  broadcasts_S1x8x64_S2048x8x64 : S1x8x64.Broadcasts S2048x8x64
  slices_S2048x8x64_o0_0_0_S2048x8x1 : S2048x8x64.Slices ![0, 0, 0] S2048x8x1
  slices_S2048x8x64_o0_0_1_S2048x8x63 : S2048x8x64.Slices ![0, 0, 1] S2048x8x63
  concatenates_S2048x8x1_S2048x8x63_S2048x8x64_d2 : Shape.Concatenates [S2048x8x1, S2048x8x63] S2048x8x64 2
  shapeCasts_S2048x8x64_S2048x512 : S2048x8x64.ShapeCasts S2048x512
  inb_S2048x512_S2048x512_0_0 : ∀ a, (![0, 0] : Fin 2 → Nat) a + S2048x512.size a ≤ S2048x512.size a
  h_S2048x512 : 0 < S2048x512.numel
  shapeCasts_S131072x512_S16x8192x512 : S131072x512.ShapeCasts S16x8192x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x8.size a ≤ S131072x8.size a
  hwx0_0 : ∀ i : grid0.Coords, EltTy.bits .f32 = 32 ∨ (Rect.block (s := S131072x8) S2048x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S8x64.size a
  hwx0_2 : ∀ i : grid0.Coords, EltTy.bits .f32 = 32 ∨ (Rect.block (s := S8x64) S8x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .f32 = 32 ∨ (Rect.block (s := S131072x512) S2048x512.size (cc0_transform_3 i) (hinb0_3 i)).WholeWords (EltTy.packing .f32)

variable [Facts₀]

abbrev win0_0 : Pipeline.Window sig grid0 :=
  Pipeline.Window.ofSpec (Memref.whole main_v0) S2048x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8192x8 : Shape := ⟨3, ![16, 8192, 8]⟩
abbrev S8x64 : Shape := ⟨2, ![8, 64]⟩
abbrev S_ : Shape := ⟨0, ![]⟩
abbrev S16x8192x8x1 : Shape := ⟨4, ![16, 8192, 8, 1]⟩
abbrev S1x1x8x64 : Shape := ⟨4, ![1, 1, 8, 64]⟩
abbrev S16x8192x8x64 : Shape := ⟨4, ![16, 8192, 8, 64]⟩
abbrev S16x8192x8x63 : Shape := ⟨4, ![16, 8192, 8, 63]⟩
abbrev S16x8192x512 : Shape := ⟨3, ![16, 8192, 512]⟩

abbrev nBuf : Space → Nat
  | .hbm => 32
  | .vmem => 0
  | .smem => 0
  | _ => 0

abbrev bufTy : (tb : Table) → Fin (tcTables nBuf tb) → BufTy
  | .hbm, ⟨0, _⟩ => ⟨S16x8192x8, .f32⟩
  | .hbm, ⟨1, _⟩ => ⟨S8x64, .f32⟩
  | .hbm, ⟨2, _⟩ => ⟨S8x64, .f32⟩
  | .hbm, ⟨3, _⟩ => ⟨S16x8192x8, .i1⟩
  | .hbm, ⟨4, _⟩ => ⟨S_, .f32⟩
  | .hbm, ⟨5, _⟩ => ⟨S16x8192x8, .f32⟩
  | .hbm, ⟨6, _⟩ => ⟨S16x8192x8, .f32⟩
  | .hbm, ⟨7, _⟩ => ⟨S_, .f32⟩
  | .hbm, ⟨8, _⟩ => ⟨S16x8192x8, .f32⟩
  | .hbm, ⟨9, _⟩ => ⟨S16x8192x8, .i1⟩
  | .hbm, ⟨10, _⟩ => ⟨S_, .f32⟩
  | .hbm, ⟨11, _⟩ => ⟨S16x8192x8, .f32⟩
  | .hbm, ⟨12, _⟩ => ⟨S16x8192x8, .f32⟩
  | .hbm, ⟨13, _⟩ => ⟨S_, .f32⟩
  | .hbm, ⟨14, _⟩ => ⟨S16x8192x8, .f32⟩
  | .hbm, ⟨15, _⟩ => ⟨S16x8192x8, .i1⟩
  | .hbm, ⟨16, _⟩ => ⟨S_, .f32⟩
  | .hbm, ⟨17, _⟩ => ⟨S16x8192x8, .f32⟩
  | .hbm, ⟨18, _⟩ => ⟨S16x8192x8, .f32⟩
  | .hbm, ⟨19, _⟩ => ⟨S16x8192x8x1, .f32⟩
  | .hbm, ⟨20, _⟩ => ⟨S1x1x8x64, .f32⟩
  | .hbm, ⟨21, _⟩ => ⟨S16x8192x8x64, .f32⟩
  | .hbm, ⟨22, _⟩ => ⟨S16x8192x8x64, .f32⟩
  | .hbm, ⟨23, _⟩ => ⟨S16x8192x8x64, .f32⟩
  | .hbm, ⟨24, _⟩ => ⟨S1x1x8x64, .f32⟩
  | .hbm, ⟨25, _⟩ => ⟨S16x8192x8x64, .f32⟩
  | .hbm, ⟨26, _⟩ => ⟨S16x8192x8x64, .f32⟩
  | .hbm, ⟨27, _⟩ => ⟨S16x8192x8x1, .f32⟩
  | .hbm, ⟨28, _⟩ => ⟨S16x8192x8x63, .f32⟩
  | .hbm, ⟨29, _⟩ => ⟨S16x8192x8x63, .f32⟩
  | .hbm, ⟨30, _⟩ => ⟨S16x8192x8x64, .f32⟩
  | .hbm, ⟨31, _⟩ => ⟨S16x8192x512, .f32⟩
  | _, _ => ⟨S16x8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_call0_v0 : Ref sig .tc := ⟨.hbm, 5, rfl⟩
abbrev main_call0_v1 : Ref sig .tc := ⟨.hbm, 6, rfl⟩
abbrev main_call0_cst_0 : Ref sig .tc := ⟨.hbm, 7, rfl⟩
abbrev main_call0_v2 : Ref sig .tc := ⟨.hbm, 8, rfl⟩
abbrev main_call0_v3 : Ref sig .tc := ⟨.hbm, 9, rfl⟩
abbrev main_call0_cst_1 : Ref sig .tc := ⟨.hbm, 10, rfl⟩
abbrev main_call0_call1_v0 : Ref sig .tc := ⟨.hbm, 11, rfl⟩
abbrev main_call0_v4 : Ref sig .tc := ⟨.hbm, 12, rfl⟩
abbrev main_call0_cst_2 : Ref sig .tc := ⟨.hbm, 13, rfl⟩
abbrev main_call0_v5 : Ref sig .tc := ⟨.hbm, 14, rfl⟩
abbrev main_call0_v6 : Ref sig .tc := ⟨.hbm, 15, rfl⟩
abbrev main_call0_cst_3 : Ref sig .tc := ⟨.hbm, 16, rfl⟩
abbrev main_call0_call2_v0 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]

class Facts₀ : Prop where
  bcast_S_S16x8192x8 : S_.BroadcastsInDim S16x8192x8 (![] : Fin 0 → Fin S16x8192x8.rank)
  bcast_S16x8192x8_S16x8192x8x1_0_1_2 : S16x8192x8.BroadcastsInDim S16x8192x8x1 (![0, 1, 2] : Fin 3 → Fin S16x8192x8x1.rank)
  bcast_S8x64_S1x1x8x64_2_3 : S8x64.BroadcastsInDim S1x1x8x64 (![2, 3] : Fin 2 → Fin S1x1x8x64.rank)
  bcast_S16x8192x8x1_S16x8192x8x64_0_1_2_3 : S16x8192x8x1.BroadcastsInDim S16x8192x8x64 (![0, 1, 2, 3] : Fin 4 → Fin S16x8192x8x64.rank)
  bcast_S1x1x8x64_S16x8192x8x64_0_1_2_3 : S1x1x8x64.BroadcastsInDim S16x8192x8x64 (![0, 1, 2, 3] : Fin 4 → Fin S16x8192x8x64.rank)
  slices_S16x8192x8x64_S16x8192x8x1_0_0_0_0 : S16x8192x8x64.Slices ![0, 0, 0, 0] S16x8192x8x1
  slices_S16x8192x8x64_S16x8192x8x63_0_0_0_1 : S16x8192x8x64.Slices ![0, 0, 0, 1] S16x8192x8x63
  concatenates_S16x8192x8x1_S16x8192x8x63_S16x8192x8x64_d3 : Shape.Concatenates [S16x8192x8x1, S16x8192x8x63] S16x8192x8x64 3
  shapeCasts_S16x8192x8x64_S16x8192x512 : S16x8192x8x64.ShapeCasts S16x8192x512

variable [Facts₀]

class Facts : Prop extends Facts₀ where

variable [Facts]
-- ==== Proof.Spec.lean ====
/-
  Time2Vec on the extended reals, as one function of the argument arrays.

  For a batch entry (B, L), an input feature d < 8 and a lane e < 64, the result at (B, L, 64·d + e) is

      h_e (clean x[B, L, d] · W[d, e] + b[d, e]),      h_0 = id,   h_e = sin for e ≥ 1,

  where clean replaces +∞ by the largest and −∞ by the smallest finite single-precision number and
  keeps every other extended real (its first test, "x differs from x", never holds: there is no NaN).
  The same function is stated a second time over the flattened rows n = 8192·B + L, which is the
  arrangement the tiled program works in; reshaping the rows of the flattened input and reshaping the
  flattened result back gives the first form, because a reshape keeps row-major positions.
-/
import Idealize.ShloMosaic.PureOps.Ideal
import Idealize.ShloMosaic.Lib.ValueIdx
import Idealize.ShloMosaic.Lib.Pipeline.Value

noncomputable section

namespace Time2Vec

open Idealize.ShloMosaic Idealize.ShloMosaic.ValueIdx

/-- The input [16, 8192, 8], a weight or bias table [8, 64], the result [16, 8192, 512]. -/
abbrev SX : Shape := ⟨3, ![16, 8192, 8]⟩
abbrev SW : Shape := ⟨2, ![8, 64]⟩
abbrev SO : Shape := ⟨3, ![16, 8192, 512]⟩
/-- The same input and result with batch and position flattened to 131072 rows. -/
abbrev SXr : Shape := ⟨2, ![131072, 8]⟩
abbrev SOr : Shape := ⟨2, ![131072, 512]⟩

/-- Infinities replaced by the extreme finite single-precision values; the leading test x ≠ x is
    never true of an extended real, so its replacement by zero never happens. -/
def clean (x : EReal) : EReal :=
  let a : EReal := Scalar.select (Ideal.cmp .one x x) (Ideal.ofBits .f32 0x00000000#32) x
  let b : EReal := Scalar.select (Ideal.cmp .oeq a (Ideal.ofBits .f32 0x7F800000#32)) (Ideal.ofBits .f32 0x7F7FFFFF#32) a
  Scalar.select (Ideal.cmp .oeq b (Ideal.ofBits .f32 0xFF800000#32)) (Ideal.ofBits .f32 0xFF7FFFFF#32) b

/-- "Unordered or different" and "ordered and different" are one test on the extended reals. -/
theorem cmp_une_eq_one (x y : EReal) : Ideal.cmp .une x y = Ideal.cmp .one x y := rfl

/-- One output entry from its lane e, its input entry, its weight and its bias: the affine value on
    lane 0, its sine on every other lane. -/
def cell (e : Nat) (x w b : EReal) : EReal :=
  if e = 0 then clean x * w + b else Ideal.sin (clean x * w + b)

/-- The input feature an output column 64·d + e belongs to, and its lane. -/
def feat (j : Fin 512) : Fin 8 := ⟨j.val / 64, by have := j.isLt; omega⟩
def lane (j : Fin 512) : Fin 64 := ⟨j.val % 64, Nat.mod_lt _ (by decide)⟩

/-- The result over flattened rows. -/
def rows (x : FVec Ideal SXr .f32) (W B : FVec Ideal SW .f32) : FVec Ideal SOr .f32 := fun i =>
  cell (lane (i 1)).val (x (ix2 (i 0) (feat (i 1)))) (W (ix2 (feat (i 1)) (lane (i 1)))) (B (ix2 (feat (i 1)) (lane (i 1))))

/-- The result in the arguments' own arrangement. -/
def out (x : FVec Ideal SX .f32) (W B : FVec Ideal SW .f32) : FVec Ideal SO .f32 := fun i =>
  cell (lane (i 2)).val (x (ix3 (i 0) (i 1) (feat (i 2)))) (W (ix2 (feat (i 2)) (lane (i 2)))) (B (ix2 (feat (i 2)) (lane (i 2))))

/-- Flatten the input's rows, apply the row form, restore the batch and position axes: the result is
    the unflattened form. Row n = 8192·B + L of either flattened array sits at the row-major position of
    (B, L, ·) in the unflattened one. -/
theorem reshape_rows (x : FVec Ideal SX .f32) (W B : FVec Ideal SW .f32) (h1 : SX.ShapeCasts SXr) (h2 : SOr.ShapeCasts SO) :
    shapeCast SO (rows (shapeCast SXr x h1) W B) h2 = out x W B := by
  funext i
  have h0 := (i 0).isLt
  have h1' := (i 1).isLt
  have h2' := (i 2).isLt
  simp only [Matrix.cons_val_zero, Matrix.cons_val_one, Matrix.cons_val_two] at h0 h1' h2'
  have hrow : (i 0).val * 8192 + (i 1).val < 131072 := by omega
  refine (shapeCast_apply _ h2 i (ix2 ⟨(i 0).val * 8192 + (i 1).val, hrow⟩ (i 2)) ?_).trans ?_
  · rw [Shape.rowMajor_val_two, Shape.rowMajor_val_three]
    show ((i 0).val * 8192 + (i 1).val) * 512 + (i 2).val = ((i 0).val * 8192 + (i 1).val) * 512 + (i 2).val
    rfl
  · show cell _ (shapeCast SXr x h1 (ix2 ⟨(i 0).val * 8192 + (i 1).val, hrow⟩ (feat (i 2)))) _ _ = _
    rw [shapeCast_apply x h1 (ix2 ⟨(i 0).val * 8192 + (i 1).val, hrow⟩ (feat (i 2))) (ix3 (i 0) (i 1) (feat (i 2)))
      (by rw [Shape.rowMajor_val_two, Shape.rowMajor_val_three]; rfl)]
    rfl

end Time2Vec

end
-- ==== Proof.KernelCell.lean ====
/-
  One block of the tiled program, entry by entry.

  A block is 2048 flattened rows. The body cleans its [2048, 8] input block, spreads each entry over 64
  lanes, multiplies by the weight table and adds the bias table (both spread over the 2048 rows), keeps
  lane 0 and takes the sine of lanes 1..63, and stores the [2048, 8, 64] value as [2048, 512]: column
  64·d + e holds feature d, lane e. So the stored entry (r, 64·d + e) is the cell of lane e from the
  input entry (r, d) and the table entries (d, e).
-/
import proofs.«110526_j2765958939448_2_alg».proof.Proof.Gen.KernelIdeal.Skeleton
import proofs.«110526_j2765958939448_2_alg».proof.Proof.Spec
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Time2Vec

section Layout
variable {α : Type}

/-- An entry of a [2048, 8] block, given a unit lane axis and spread over 64 lanes, is read back at
    every lane. -/
theorem column_spread (v : S2048x8.Idx → α) (h1 : S2048x8.ShapeCasts S2048x8x1) (h2 : S2048x8x1.Broadcasts S2048x8x64)
    (r : Fin 2048) (d : Fin 8) (e : Fin 64) :
    broadcastTo S2048x8x64 (shapeCast S2048x8x1 v h1) h2 (ix3 r d e) = v (ix2 r d) := by
  refine (broadcastTo_apply _ h2 (ix3 r d e) (ix3 r d (0 : Fin 1)) (fun a => ?_)).trans ?_
  · match a with
    | ⟨0, _⟩ => rfl
    | ⟨1, _⟩ => rfl
    | ⟨2, _⟩ => rfl
  · refine shapeCast_apply v h1 (ix3 r d (0 : Fin 1)) (ix2 r d) ?_
    rw [Shape.rowMajor_val_two, Shape.rowMajor_val_three]
    show r.val * 8 + d.val = (r.val * 8 + d.val) * 1 + 0
    omega

/-- An entry of an [8, 64] table, given a unit row axis and spread over 2048 rows, is read back at
    every row. -/
theorem table_spread (w : S8x64.Idx → α) (h1 : S8x64.ShapeCasts S1x8x64) (h2 : S1x8x64.Broadcasts S2048x8x64)
    (r : Fin 2048) (d : Fin 8) (e : Fin 64) :
    broadcastTo S2048x8x64 (shapeCast S1x8x64 w h1) h2 (ix3 r d e) = w (ix2 d e) := by
  refine (broadcastTo_apply _ h2 (ix3 r d e) (ix3 (0 : Fin 1) d e) (fun a => ?_)).trans ?_
  · match a with
    | ⟨0, _⟩ => rfl
    | ⟨1, _⟩ => rfl
    | ⟨2, _⟩ => rfl
  · refine shapeCast_apply w h1 (ix3 (0 : Fin 1) d e) (ix2 d e) ?_
    rw [Shape.rowMajor_val_two, Shape.rowMajor_val_three]
    show d.val * 64 + e.val = (0 * 8 + d.val) * 64 + e.val
    omega

end Layout

/-- Lane 0 of a [2048, 8, 64] value joined with the sine of its lanes 1..63: at lane 0 the value itself,
    at any other lane its sine. -/
theorem lanes_apply (v : FVec Ideal S2048x8x64 .f32) (hs0 : S2048x8x64.Slices ![0, 0, 0] S2048x8x1)
    (hs1 : S2048x8x64.Slices ![0, 0, 1] S2048x8x63)
    (hc : Shape.Concatenates [S2048x8x1, S2048x8x63] S2048x8x64 2) (r : Fin 2048) (d : Fin 8) (e : Fin 64) :
    concatenate S2048x8x64 2 [⟨S2048x8x1, extractStridedSlice S2048x8x1 ![0, 0, 0] v hs0⟩,
        ⟨S2048x8x63, sin (extractStridedSlice S2048x8x63 ![0, 0, 1] v hs1)⟩] hc (ix3 r d e)
      = if e.val = 0 then v (ix3 r d e) else Ideal.sin (v (ix3 r d e)) := by
  by_cases he : e.val = 0
  · rw [if_pos he]
    refine (concatenate_pair_apply_left (t := S2048x8x64) (s₁ := S2048x8x1) (s₂ := S2048x8x63) (2 : Fin 3) _ _ hc (ix3 r d e) rfl (ix3 r d (0 : Fin 1)) (fun b => ?_)).trans ?_
    · match b with
      | ⟨0, _⟩ => rfl
      | ⟨1, _⟩ => rfl
      | ⟨2, _⟩ => exact he.symm
    · refine extractStridedSlice_apply _ v hs0 (ix3 r d (0 : Fin 1)) (ix3 r d e) (fun a => ?_)
      match a with
      | ⟨0, _⟩ => show r.val = 0 + r.val; omega
      | ⟨1, _⟩ => show d.val = 0 + d.val; omega
      | ⟨2, _⟩ => show e.val = 0 + 0; omega
  · rw [if_neg he]
    have hlt : e.val - 1 < 63 := by have := e.isLt; omega
    refine (concatenate_pair_apply_right (t := S2048x8x64) (s₁ := S2048x8x1) (s₂ := S2048x8x63) (2 : Fin 3) _ _ hc (ix3 r d e) rfl rfl (ix3 r d (⟨e.val - 1, hlt⟩ : Fin 63))
      (fun b hb => ?_) ?_).trans ?_
    · match b with
      | ⟨0, _⟩ => rfl
      | ⟨1, _⟩ => rfl
      | ⟨2, _⟩ => exact absurd rfl hb
    · show e.val - 1 + 1 = e.val
      omega
    · show Ideal.sin (extractStridedSlice S2048x8x63 ![0, 0, 1] v hs1 (ix3 r d (⟨e.val - 1, hlt⟩ : Fin 63))) = _
      refine congrArg Ideal.sin (extractStridedSlice_apply _ v hs1 _ (ix3 r d e) (fun a => ?_))
      match a with
      | ⟨0, _⟩ => show r.val = 0 + r.val; omega
      | ⟨1, _⟩ => show d.val = 0 + d.val; omega
      | ⟨2, _⟩ => show e.val = 1 + (e.val - 1); omega

/-- The stored value of one block at row r and column j: the cell of j's lane from the block's input
    entry at (r, j's feature) and the two tables' entries at (j's feature, j's lane). -/
theorem payload_apply (x0 : Vec Ideal S2048x8 .f32) (x1 x2 : Vec Ideal S8x64 .f32) (r : Fin 2048) (j : Fin 512) :
    k0_pay1 (F := Ideal) x0 x1 x2 (ix2 r j)
      = cell (lane j).val (x0 (ix2 r (feat j))) (x1 (ix2 (feat j) (lane j))) (x2 (ix2 (feat j) (lane j))) := by
  unfold k0_pay1
  refine (shapeCast_apply _ _ (ix2 r j) (ix3 r (feat j) (lane j)) ?_).trans ?_
  · rw [Shape.rowMajor_val_two, Shape.rowMajor_val_three]
    show (r.val * 8 + j.val / 64) * 64 + j.val % 64 = r.val * 512 + j.val
    omega
  refine (lanes_apply _ _ _ _ r (feat j) (lane j)).trans ?_
  unfold cell
  have haff : ∀ (a : FVec Ideal S2048x8 .f32) (h1 h2 h3 h4 h5 h6),
      addf (mulf (broadcastTo S2048x8x64 (shapeCast S2048x8x1 a h1) h2) (broadcastTo S2048x8x64 (shapeCast S1x8x64 x1 h3) h4))
        (broadcastTo S2048x8x64 (shapeCast S1x8x64 x2 h5) h6) (ix3 r (feat j) (lane j))
        = a (ix2 r (feat j)) * x1 (ix2 (feat j) (lane j)) + x2 (ix2 (feat j) (lane j)) := by
    intro a h1 h2 h3 h4 h5 h6
    show broadcastTo S2048x8x64 (shapeCast S2048x8x1 a h1) h2 (ix3 r (feat j) (lane j))
        * broadcastTo S2048x8x64 (shapeCast S1x8x64 x1 h3) h4 (ix3 r (feat j) (lane j))
        + broadcastTo S2048x8x64 (shapeCast S1x8x64 x2 h5) h6 (ix3 r (feat j) (lane j)) = _
    rw [column_spread, table_spread, table_spread]
  rw [haff]
  rw [shapeCast_self]
  rfl

end Cert.KernelIdeal.Block

end
-- ==== Proof.KernelArray.lean ====
/-
  From blocks to the flattened result array.

  The tiled program walks 64 grid points; point t reads rows 2048·t .. 2048·t + 2047 of the flattened
  input (all 8 columns) and both whole tables, and writes back rows 2048·t .. 2048·t + 2047 of the
  flattened result (all 512 columns). By the block's entrywise value, what point t writes back is that
  range of rows of the row form of the result; the 64 ranges fill the 131072 rows, so the array ends
  holding the row form everywhere. The flattened input itself is the reshape of the first argument.
-/
import proofs.«110526_j2765958939448_2_alg».proof.Proof.Gen.KernelIdeal.Frame
import proofs.«110526_j2765958939448_2_alg».proof.Proof.KernelCell
import Idealize.ShloMosaic.Lib.Pipeline.Value
import Idealize.ShloMosaic.Lib.StableHlo.Run

set_option maxRecDepth 16384

noncomputable section

namespace Cert.KernelIdeal.Rows

open Cert.KernelIdeal Cert.KernelIdeal.Gen Cert.KernelIdeal.Block
open Idealize.ShloMosaic Idealize.ShloMosaic.TcCoe Idealize.ShloMosaic.ValueIdx Idealize.SL.Sem Idealize.ShloMosaic.StableHlo
open Idealize.ShloMosaic.Pipeline (Dat)
open Time2Vec

variable (m : (ℓ : Loc nD τ sig) → Buf (Elt Ideal) ℓ)

/-- The flattened input the region finds is the first argument reshaped. -/
theorem entry_rows (c : Dev nD) :
    (V m c main_v0 : S131072x8.Idx → EReal)
      = shapeCast S131072x8 (m ((c : Thread nD τ).loc main_arg0)) shapeCasts_S16x8192x8_S131072x8 := by
  show StableHlo.after hostOps0 (fun b => m (c, b)) (Proc.devRef .tc main_v0) = _
  after_results
  rfl

theorem zero_offsets : (![0, 0] : Fin 2 → Nat) = fun _ => 0 := funext fun a => by fin_cases a <;> rfl

/-- The printed block-index maps over the grid: the input's and the result's row block is the point's
    number, every other block index is zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is rows 2048·t .. 2048·t + 2047 of the row form of the result, computed
    from the arrays as the region finds them. -/
theorem flushed_rows (c : Dev nD) (t : Fin cfg0.N) :
    (dats m 0 c).flushed 3 t
      = ((cfg0.win 3).blk t).view.read (Elt Ideal) (rows (V m c main_v0) (V m c main_arg1) (V m c main_arg2)) := by
  show (cfg0.win 3).cut (grid0.coords t) ((dats m 0 c).after 3 t) = _
  rw [after0_3]
  unfold out0_3
  rw [View.canon_unit_zero zero_offsets]
  simp only [View.ld_unit_zero (S := S2048x8) zero_offsets, View.ld_unit_zero (S := S8x64) zero_offsets]
  obtain ⟨e00, e01, e10, e11, e20, e21, e30, e31⟩ := index_facts t
  have htN : t.val < 64 := t.isLt
  funext y
  obtain ⟨r, j, rfl⟩ : ∃ (r : Fin 2048) (j : Fin 512), y = ix2 r j := ⟨y 0, y 1, eq_ix2 y⟩
  have hrow : t.val * 2048 + r.val < 131072 := by have := r.isLt; omega
  have e3 : ((cfg0.win 3).blk t).view.emb (ix2 r j) = ix2 (⟨t.val * 2048 + r.val, hrow⟩ : Fin 131072) j := by
    funext a; apply Fin.ext
    match a with
    | ⟨0, _⟩ => show win0_3.index t (0 : Fin 2) * 2048 + 1 * r.val = t.val * 2048 + r.val; omega
    | ⟨1, _⟩ => show win0_3.index t (1 : Fin 2) * 512 + 1 * j.val = j.val; omega
  have h0 : iblk m c 0 t (ix2 r (feat j)) = V m c main_v0 (ix2 (⟨t.val * 2048 + r.val, hrow⟩ : Fin 131072) (feat j)) := by
    show V m c main_v0 (((cfg0.win 0).blk t).view.emb (ix2 r (feat j))) = _
    refine congrArg _ (funext fun a => Fin.ext ?_)
    match a with
    | ⟨0, _⟩ => show win0_0.index t (0 : Fin 2) * 2048 + 1 * r.val = t.val * 2048 + r.val; omega
    | ⟨1, _⟩ => show win0_0.index t (1 : Fin 2) * 8 + 1 * (feat j).val = (feat j).val; omega
  have h1 : iblk m c 1 t (ix2 (feat j) (lane j)) = V m c main_arg1 (ix2 (feat j) (lane j)) := by
    show V m c main_arg1 (((cfg0.win 1).blk t).view.emb (ix2 (feat j) (lane j))) = _
    refine congrArg _ (funext fun a => Fin.ext ?_)
    match a with
    | ⟨0, _⟩ => show win0_1.index t (0 : Fin 2) * 8 + 1 * (feat j).val = (feat j).val; omega
    | ⟨1, _⟩ => show win0_1.index t (1 : Fin 2) * 64 + 1 * (lane j).val = (lane j).val; omega
  have h2 : iblk m c 2 t (ix2 (feat j) (lane j)) = V m c main_arg2 (ix2 (feat j) (lane j)) := by
    show V m c main_arg2 (((cfg0.win 2).blk t).view.emb (ix2 (feat j) (lane j))) = _
    refine congrArg _ (funext fun a => Fin.ext ?_)
    match a with
    | ⟨0, _⟩ => show win0_2.index t (0 : Fin 2) * 8 + 1 * (feat j).val = (feat j).val; omega
    | ⟨1, _⟩ => show win0_2.index t (1 : Fin 2) * 64 + 1 * (lane j).val = (lane j).val; omega
  show k0_pay1 (F := Ideal) (iblk m c 0 t) (iblk m c 1 t) (iblk m c 2 t) (ix2 r j)
    = rows (V m c main_v0) (V m c main_arg1) (V m c main_arg2) (((cfg0.win 3).blk t).view.emb (ix2 r j))
  refine (payload_apply (iblk m c 0 t) (iblk m c 1 t) (iblk m c 2 t) r j).trans ?_
  rw [e3, h0, h1, h2]
  rfl

/-- An index of the flattened result lies in point t's block exactly when each coordinate lies in the
    block's range on its axis. -/
theorem mem_block (t : Fin cfg0.N) (i : S131072x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v1).slice (win0_3.rect t)).set ↔ _
  rw [View.set_slice_whole, Rect.mem_set_unit]
  exact Iff.rfl

/-- Row n of the flattened result is written back by point n / 2048. -/
theorem covered (i : S131072x512.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  have hN : cfg0.N = 64 := N_0
  let t : Fin cfg0.N := ⟨(i 0).val / 2048, by rw [hN]; omega⟩
  obtain ⟨-, -, -, -, -, -, e30, e31⟩ := index_facts t
  have ht : t.val = (i 0).val / 2048 := rfl
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-- The flattened result array after the region: the row form of the flattened input and the tables. -/
theorem final_rows (c : Dev nD) :
    (dats m 0 c).arrAt 3 cfg0.N = rows (V m c main_v0) (V m c main_arg1) (V m c main_arg2) :=
  (dats m 0 c).arrAt_eq_of_cover 3 _ (fun t _ => flushed_rows m c t) covered

end Cert.KernelIdeal.Rows

end
-- ==== Proof.KernelRun.lean ====
/-
  The tiled program's run, read back.

  After the region the flattened result array holds the row form of the flattened input and the tables;
  the one host operation after the region restores the batch and position axes. Flattening the
  input's rows, the row form, and unflattening compose to the function out of the arguments
  themselves, and the tables reach the region as launched.
-/
import proofs.«110526_j2765958939448_2_alg».proof.Proof.KernelArray

set_option maxRecDepth 16384

noncomputable section

namespace Cert.KernelIdeal.Whole

open Cert.KernelIdeal Cert.KernelIdeal.Gen Cert.KernelIdeal.Rows
open Idealize.ShloMosaic Idealize.ShloMosaic.TcCoe Idealize.ShloMosaic.ValueIdx Idealize.SL.Sem Idealize.ShloMosaic.StableHlo
open Time2Vec

variable (m : (ℓ : Loc nD τ sig) → Buf (Elt Ideal) ℓ) (ρ : Dev nD → PrngReg)

/-- The result buffer after the host operation that follows the region. -/
theorem result_eq (c : Dev nD) :
    Pipeline.afterTail₀ cfgs (dats m) 0 (V0 m) [hostOps1] c main_v2
      = out (m ((c : Thread nD τ).loc main_arg0)) (m ((c : Thread nD τ).loc main_arg1)) (m ((c : Thread nD τ).loc main_arg2)) := by
  have hA : Pipeline.withArrays (cfgs 0).spec c (V0 m c) (fun w => (dats m 0 c).arrAt w (cfgs 0).N) (Proc.devRef .tc main_v1)
      = rows (shapeCast S131072x8 (m ((c : Thread nD τ).loc main_arg0)) shapeCasts_S16x8192x8_S131072x8)
          (m ((c : Thread nD τ).loc main_arg1)) (m ((c : Thread nD τ).loc main_arg2)) := by
    refine ((Pipeline.withArrays_arr spec0 launch0.win.arr_inj c _ _ 3).trans (final_rows m c)).trans ?_
    rw [entry_rows m c, V_main_arg1 m c, V_main_arg2 m c]
  unfold Pipeline.afterTail₀
  show StableHlo.after hostOps1 _ (Proc.devRef .tc main_v2) = _
  after_results
  show shapeCast S16x8192x512
      (Pipeline.withArrays (cfgs 0).spec c (V0 m c) (fun w => (dats m 0 c).arrAt w (cfgs 0).N) (Proc.devRef .tc main_v1))
      shapeCasts_S131072x512_S16x8192x512 = _
  rw [hA]
  exact reshape_rows _ _ _ _ _

/-- Every weakly fair execution of the tiled program terminates with its result buffer at out of the
    arguments, and the arguments as launched. -/
theorem run : θ_run defs (onTc (τ := τ) (main (F := Ideal))) ⟨m, fun _ => 0, ρ⟩ fun r => ∀ c : Dev nD,
      r.2.mem ((c.tc : Thread nD τ).loc main_v2)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Whole

end
-- ==== Proof.RefRun.lean ====
/-
  The reference program's run, read back.

  The reference is a straight line of host operations once its call of nan_to_num, and that function's
  three calls of where, are replaced by their bodies over the buffers each call names: sixteen
  operations clean the input (the test x ≠ x and its select, then one comparison and one select for each
  infinity), thirteen more spread the cleaned input and the two tables to [16, 8192, 8, 64], multiply,
  add, keep lane 0, take the sine of lanes 1..63, join them and flatten the last two axes. Every weakly
  fair execution ends with the result buffer at that composition of the arguments, the arguments as
  they were.
-/
import proofs.«110526_j2765958939448_2_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The reference's 29 operations in order, each call's body in the call's place. -/
abbrev ops : List (HloOp τ sig (Elt F)) :=
  [ TRef.binary (.of main_arg0) (.of main_arg0) main_call0.v0 (cmpf .une),
    TRef.nullary main_call0.cst (constant S_ .f32 0x00000000#32),
    TRef.unary main_call0.cst main_call0.call0.v0 (broadcastInDim S16x8192x8 ![] bcast_S_S16x8192x8),
    TRef.ternary main_call0.v0 main_call0.call0.v0 (.of main_arg0) main_call0.call0.v1 select,
    TRef.nullary main_call0.cst_0 (constant S_ .f32 0x7F800000#32),
    TRef.unary main_call0.cst_0 main_call0.v2 (broadcastInDim S16x8192x8 ![] bcast_S_S16x8192x8),
    TRef.binary main_call0.call0.v1 main_call0.v2 main_call0.v3 (cmpf .oeq),
    TRef.nullary main_call0.cst_1 (constant S_ .f32 0x7F7FFFFF#32),
    TRef.unary main_call0.cst_1 main_call0.call1.v0 (broadcastInDim S16x8192x8 ![] bcast_S_S16x8192x8),
    TRef.ternary main_call0.v3 main_call0.call1.v0 main_call0.call0.v1 main_call0.call1.v1 select,
    TRef.nullary main_call0.cst_2 (constant S_ .f32 0xFF800000#32),
    TRef.unary main_call0.cst_2 main_call0.v5 (broadcastInDim S16x8192x8 ![] bcast_S_S16x8192x8),
    TRef.binary main_call0.call1.v1 main_call0.v5 main_call0.v6 (cmpf .oeq),
    TRef.nullary main_call0.cst_3 (constant S_ .f32 0xFF7FFFFF#32),
    TRef.unary main_call0.cst_3 main_call0.call2.v0 (broadcastInDim S16x8192x8 ![] bcast_S_S16x8192x8),
    TRef.ternary main_call0.v6 main_call0.call2.v0 main_call0.call1.v1 main_call0.call2.v1 select,
    unary main_v0 main_v1 (broadcastInDim S16x8192x8x1 ![0, 1, 2] bcast_S16x8192x8_S16x8192x8x1_0_1_2 : (⟨S16x8192x8, .f32⟩ : BufTy).Contents (Elt F) → (⟨S16x8192x8x1, .f32⟩ : BufTy).Contents (Elt F)),
    unary main_arg1 main_v2 (broadcastInDim S1x1x8x64 ![2, 3] bcast_S8x64_S1x1x8x64_2_3 : (⟨S8x64, .f32⟩ : BufTy).Contents (Elt F) → (⟨S1x1x8x64, .f32⟩ : BufTy).Contents (Elt F)),
    unary main_v1 main_v3 (broadcastInDim S16x8192x8x64 ![0, 1, 2, 3] bcast_S16x8192x8x1_S16x8192x8x64_0_1_2_3 : (⟨S16x8192x8x1, .f32⟩ : BufTy).Contents (Elt F) → (⟨S16x8192x8x64, .f32⟩ : BufTy).Contents (Elt F)),
    unary main_v2 main_v4 (broadcastInDim S16x8192x8x64 ![0, 1, 2, 3] bcast_S1x1x8x64_S16x8192x8x64_0_1_2_3 : (⟨S1x1x8x64, .f32⟩ : BufTy).Contents (Elt F) → (⟨S16x8192x8x64, .f32⟩ : BufTy).Contents (Elt F)),
    binary main_v3 main_v4 main_v5 (mulf : (⟨S16x8192x8x64, .f32⟩ : BufTy).Contents (Elt F) → (⟨S16x8192x8x64, .f32⟩ : BufTy).Contents (Elt F) → (⟨S16x8192x8x64, .f32⟩ : BufTy).Contents (Elt F)),
    unary main_arg2 main_v6 (broadcastInDim S1x1x8x64 ![2, 3] bcast_S8x64_S1x1x8x64_2_3 : (⟨S8x64, .f32⟩ : BufTy).Contents (Elt F) → (⟨S1x1x8x64, .f32⟩ : BufTy).Contents (Elt F)),
    unary main_v6 main_v7 (broadcastInDim S16x8192x8x64 ![0, 1, 2, 3] bcast_S1x1x8x64_S16x8192x8x64_0_1_2_3 : (⟨S1x1x8x64, .f32⟩ : BufTy).Contents (Elt F) → (⟨S16x8192x8x64, .f32⟩ : BufTy).Contents (Elt F)),
    binary main_v5 main_v7 main_v8 (addf : (⟨S16x8192x8x64, .f32⟩ : BufTy).Contents (Elt F) → (⟨S16x8192x8x64, .f32⟩ : BufTy).Contents (Elt F) → (⟨S16x8192x8x64, .f32⟩ : BufTy).Contents (Elt F)),
    unary main_v8 main_v9 ((extractStridedSlice S16x8192x8x1 ![0, 0, 0, 0] · slices_S16x8192x8x64_S16x8192x8x1_0_0_0_0) : (⟨S16x8192x8x64, .f32⟩ : BufTy).Contents (Elt F) → (⟨S16x8192x8x1, .f32⟩ : BufTy).Contents (Elt F)),
    unary main_v8 main_v10 ((extractStridedSlice S16x8192x8x63 ![0, 0, 0, 1] · slices_S16x8192x8x64_S16x8192x8x63_0_0_0_1) : (⟨S16x8192x8x64, .f32⟩ : BufTy).Contents (Elt F) → (⟨S16x8192x8x63, .f32⟩ : BufTy).Contents (Elt F)),
    unary main_v10 main_v11 (Host.sin : (⟨S16x8192x8x63, .f32⟩ : BufTy).Contents (Elt F) → (⟨S16x8192x8x63, .f32⟩ : BufTy).Contents (Elt F)),
    binary main_v9 main_v11 main_v12 ((fun a b => concatenate S16x8192x8x64 3 [⟨S16x8192x8x1, a⟩, ⟨S16x8192x8x63, b⟩] concatenates_S16x8192x8x1_S16x8192x8x63_S16x8192x8x64_d3) : (⟨S16x8192x8x1, .f32⟩ : BufTy).Contents (Elt F) → (⟨S16x8192x8x63, .f32⟩ : BufTy).Contents (Elt F) → (⟨S16x8192x8x64, .f32⟩ : BufTy).Contents (Elt F)),
    reshape main_v12 main_v13 rfl shapeCasts_S16x8192x8x64_S16x8192x512 ]

set_option maxRecDepth 2048 in
/-- The printed program is that straight line: the three functions' definitions unfolded at their calls
    and sequencing reassociated, the two sides are one chain of the same steps. -/
theorem main_eq (c : Dev nD) : main (F := F) c = seq ops := by
  simp only [main, fn_nan_to_num.body, fn_where.body, fn_where_0.body, seq, bind_assoc, pure_bind]

/-- The input with its infinities replaced, as the sixteen cleaning operations compose. -/
def cleaned (x : FVec F S16x8192x8 .f32) : FVec F S16x8192x8 .f32 :=
  let a : FVec F S16x8192x8 .f32 := select (cmpf .une x x) (broadcastInDim S16x8192x8 ![] bcast_S_S16x8192x8 (constant S_ .f32 0x00000000#32)) x
  let b : FVec F S16x8192x8 .f32 := select (cmpf .oeq a (broadcastInDim S16x8192x8 ![] bcast_S_S16x8192x8 (constant S_ .f32 0x7F800000#32)))
    (broadcastInDim S16x8192x8 ![] bcast_S_S16x8192x8 (constant S_ .f32 0x7F7FFFFF#32)) a
  select (cmpf .oeq b (broadcastInDim S16x8192x8 ![] bcast_S_S16x8192x8 (constant S_ .f32 0xFF800000#32)))
    (broadcastInDim S16x8192x8 ![] bcast_S_S16x8192x8 (constant S_ .f32 0xFF7FFFFF#32)) b

/-- The cleaned input times the weights plus the bias, every operand spread to [16, 8192, 8, 64]. -/
def affine (x : FVec F S16x8192x8 .f32) (W B : FVec F S8x64 .f32) : FVec F S16x8192x8x64 .f32 :=
  addf
    (mulf
      (broadcastInDim S16x8192x8x64 ![0, 1, 2, 3] bcast_S16x8192x8x1_S16x8192x8x64_0_1_2_3
        (broadcastInDim S16x8192x8x1 ![0, 1, 2] bcast_S16x8192x8_S16x8192x8x1_0_1_2 (cleaned x)))
      (broadcastInDim S16x8192x8x64 ![0, 1, 2, 3] bcast_S1x1x8x64_S16x8192x8x64_0_1_2_3
        (broadcastInDim S1x1x8x64 ![2, 3] bcast_S8x64_S1x1x8x64_2_3 W)))
    (broadcastInDim S16x8192x8x64 ![0, 1, 2, 3] bcast_S1x1x8x64_S16x8192x8x64_0_1_2_3
      (broadcastInDim S1x1x8x64 ![2, 3] bcast_S8x64_S1x1x8x64_2_3 B))

/-- Lane 0 of the affine value joined with the sine of its other lanes, the last two axes flattened. -/
def result (x : FVec F S16x8192x8 .f32) (W B : FVec F S8x64 .f32) : FVec F S16x8192x512 .f32 :=
  shapeCast S16x8192x512
    (concatenate S16x8192x8x64 3
      [⟨S16x8192x8x1, extractStridedSlice S16x8192x8x1 ![0, 0, 0, 0] (affine x W B) slices_S16x8192x8x64_S16x8192x8x1_0_0_0_0⟩,
       ⟨S16x8192x8x63, Host.sin (extractStridedSlice S16x8192x8x63 ![0, 0, 0, 1] (affine x W B) slices_S16x8192x8x64_S16x8192x8x63_0_0_0_1)⟩]
      concatenates_S16x8192x8x1_S16x8192x8x63_S16x8192x8x64_d3)
    shapeCasts_S16x8192x8x64_S16x8192x512

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., ternary_bufs_sub ..,
    nullary_bufs_sub .., unary_bufs_sub .., binary_bufs_sub ..,
    nullary_bufs_sub .., unary_bufs_sub .., ternary_bufs_sub ..,
    nullary_bufs_sub .., unary_bufs_sub .., binary_bufs_sub ..,
    nullary_bufs_sub .., unary_bufs_sub .., ternary_bufs_sub ..,
    unary_bufs_sub .., unary_bufs_sub .., unary_bufs_sub .., unary_bufs_sub .., binary_bufs_sub ..,
    unary_bufs_sub .., unary_bufs_sub .., binary_bufs_sub ..,
    unary_bufs_sub .., unary_bufs_sub .., unary_bufs_sub .., binary_bufs_sub .., reshape_bufs_sub ..⟩

/-- On every device, from any memory with zero counters: every weakly fair execution of the reference
    terminates, and every buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxHeartbeats 2000000 in
/-- The fold at the result buffer is the composed value of the fold's start at the argument buffers:
    each operation's result read at its own buffer, every other buffer passed over, and the typed
    buffers' transports along reflexive equations the identity. -/
theorem out_eq (V : Valuation τ sig (Elt F)) :
    after ops V (main_v13 : DevRef τ sig)
      = result (V (main_arg0 : DevRef τ sig)) (V (main_arg1 : DevRef τ sig)) (V (main_arg2 : DevRef τ sig)) := by
  after_results_simp
  rfl

set_option maxHeartbeats 2000000 in
/-- No operation writes an argument buffer. -/
theorem arg0_eq (V : Valuation τ sig (Elt F)) : after ops V (main_arg0 : DevRef τ sig) = V (main_arg0 : DevRef τ sig) := by
  after_results_simp

set_option maxHeartbeats 2000000 in
theorem arg1_eq (V : Valuation τ sig (Elt F)) : after ops V (main_arg1 : DevRef τ sig) = V (main_arg1 : DevRef τ sig) := by
  after_results_simp

set_option maxHeartbeats 2000000 in
theorem arg2_eq (V : Valuation τ sig (Elt F)) : after ops V (main_arg2 : DevRef τ sig) = V (main_arg2 : DevRef τ sig) := by
  after_results_simp

/-- Every weakly fair execution of the reference terminates with its result buffer at the composed
    value of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v13).trans (out_eq _),
      (h c main_arg0).trans (arg0_eq _),
      (h c main_arg1).trans (arg1_eq _),
      (h c main_arg2).trans (arg2_eq _)⟩)
    (run_main m ρ)

end Cert.ReferenceIdeal.Straight

end
-- ==== Proof.RefValue.lean ====
/-
  The reference's composed value, entry by entry.

  At (B, L, 64·d + e) the flattening reads the [16, 8192, 8, 64] value at (B, L, d, e); there lane 0 is the
  affine value and every other lane its sine; and the affine value at (B, L, d, e) is the cleaned input
  entry (B, L, d) times the weight (d, e) plus the bias (d, e), each operand having been spread along
  the axes it lacks. The reference's test "x unordered with or different from x" is the same test on
  the extended reals as "x ordered and different from x". So the reference computes the function out.
-/
import proofs.«110526_j2765958939448_2_alg».proof.Proof.RefRun
import proofs.«110526_j2765958939448_2_alg».proof.Proof.Spec
import Idealize.ShloMosaic.Lib.Pipeline.Value
import Idealize.ShloMosaic.Lib.ValueIdx

noncomputable section

namespace Cert.ReferenceIdeal.Entry

open Cert.ReferenceIdeal Cert.ReferenceIdeal.Straight Idealize.ShloMosaic Idealize.ShloMosaic.ValueIdx Time2Vec

section Layout
variable {α : Type}

/-- An input entry, given a unit lane axis and spread over 64 lanes, is read back at every lane. -/
theorem entry_spread (v : S16x8192x8.Idx → α) (h1 : S16x8192x8.BroadcastsInDim S16x8192x8x1 ![0, 1, 2])
    (h2 : S16x8192x8x1.BroadcastsInDim S16x8192x8x64 ![0, 1, 2, 3])
    (b : Fin 16) (l : Fin 8192) (d : Fin 8) (e : Fin 64) :
    broadcastInDim S16x8192x8x64 ![0, 1, 2, 3] h2 (broadcastInDim S16x8192x8x1 ![0, 1, 2] h1 v) (ix4 b l d e) = v (ix3 b l d) := by
  refine (broadcastInDim_apply _ h2 _ (ix4 b l d e) (ix4 b l d (0 : Fin 1)) (fun a => ?_)).trans ?_
  · match a with
    | ⟨0, _⟩ => rfl
    | ⟨1, _⟩ => rfl
    | ⟨2, _⟩ => rfl
    | ⟨3, _⟩ => rfl
  · refine broadcastInDim_apply _ h1 v (ix4 b l d (0 : Fin 1)) (ix3 b l d) (fun a => ?_)
    match a with
    | ⟨0, _⟩ => rfl
    | ⟨1, _⟩ => rfl
    | ⟨2, _⟩ => rfl

/-- A table entry, given unit batch and position axes and spread over them, is read back at every
    batch entry and position. -/
theorem table_spread (w : S8x64.Idx → α) (h1 : S8x64.BroadcastsInDim S1x1x8x64 ![2, 3])
    (h2 : S1x1x8x64.BroadcastsInDim S16x8192x8x64 ![0, 1, 2, 3])
    (b : Fin 16) (l : Fin 8192) (d : Fin 8) (e : Fin 64) :
    broadcastInDim S16x8192x8x64 ![0, 1, 2, 3] h2 (broadcastInDim S1x1x8x64 ![2, 3] h1 w) (ix4 b l d e) = w (ix2 d e) := by
  refine (broadcastInDim_apply _ h2 _ (ix4 b l d e) (ix4 (0 : Fin 1) (0 : Fin 1) d e) (fun a => ?_)).trans ?_
  · match a with
    | ⟨0, _⟩ => rfl
    | ⟨1, _⟩ => rfl
    | ⟨2, _⟩ => rfl
    | ⟨3, _⟩ => rfl
  · refine broadcastInDim_apply _ h1 w (ix4 (0 : Fin 1) (0 : Fin 1) d e) (ix2 d e) (fun a => ?_)
    match a with
    | ⟨0, _⟩ => rfl
    | ⟨1, _⟩ => rfl

end Layout

/-- Lane 0 of a [16, 8192, 8, 64] value joined with the sine of its lanes 1..63: at lane 0 the value itself,
    at any other lane its sine. -/
theorem lanes_apply (v : FVec Ideal S16x8192x8x64 .f32) (hs0 : S16x8192x8x64.Slices ![0, 0, 0, 0] S16x8192x8x1)
    (hs1 : S16x8192x8x64.Slices ![0, 0, 0, 1] S16x8192x8x63)
    (hc : Shape.Concatenates [S16x8192x8x1, S16x8192x8x63] S16x8192x8x64 3)
    (b : Fin 16) (l : Fin 8192) (d : Fin 8) (e : Fin 64) :
    concatenate S16x8192x8x64 3 [⟨S16x8192x8x1, extractStridedSlice S16x8192x8x1 ![0, 0, 0, 0] v hs0⟩,
        ⟨S16x8192x8x63, Host.sin (extractStridedSlice S16x8192x8x63 ![0, 0, 0, 1] v hs1)⟩] hc (ix4 b l d e)
      = if e.val = 0 then v (ix4 b l d e) else Ideal.sin (v (ix4 b l d e)) := by
  by_cases he : e.val = 0
  · rw [if_pos he]
    refine (concatenate_pair_apply_left (t := S16x8192x8x64) (s₁ := S16x8192x8x1) (s₂ := S16x8192x8x63) (3 : Fin 4) _ _ hc
      (ix4 b l d e) rfl (ix4 b l d (0 : Fin 1)) (fun a => ?_)).trans ?_
    · match a with
      | ⟨0, _⟩ => rfl
      | ⟨1, _⟩ => rfl
      | ⟨2, _⟩ => rfl
      | ⟨3, _⟩ => exact he.symm
    · refine extractStridedSlice_apply _ v hs0 (ix4 b l d (0 : Fin 1)) (ix4 b l d e) (fun a => ?_)
      match a with
      | ⟨0, _⟩ => show b.val = 0 + b.val; omega
      | ⟨1, _⟩ => show l.val = 0 + l.val; omega
      | ⟨2, _⟩ => show d.val = 0 + d.val; omega
      | ⟨3, _⟩ => show e.val = 0 + 0; omega
  · rw [if_neg he]
    have hlt : e.val - 1 < 63 := by have := e.isLt; omega
    refine (concatenate_pair_apply_right (t := S16x8192x8x64) (s₁ := S16x8192x8x1) (s₂ := S16x8192x8x63) (3 : Fin 4) _ _ hc
      (ix4 b l d e) rfl rfl (ix4 b l d (⟨e.val - 1, hlt⟩ : Fin 63)) (fun a ha => ?_) ?_).trans ?_
    · match a with
      | ⟨0, _⟩ => rfl
      | ⟨1, _⟩ => rfl
      | ⟨2, _⟩ => rfl
      | ⟨3, _⟩ => exact absurd rfl ha
    · show e.val - 1 + 1 = e.val
      omega
    · show Ideal.sin (extractStridedSlice S16x8192x8x63 ![0, 0, 0, 1] v hs1 (ix4 b l d (⟨e.val - 1, hlt⟩ : Fin 63))) = _
      refine congrArg Ideal.sin (extractStridedSlice_apply _ v hs1 _ (ix4 b l d e) (fun a => ?_))
      match a with
      | ⟨0, _⟩ => show b.val = 0 + b.val; omega
      | ⟨1, _⟩ => show l.val = 0 + l.val; omega
      | ⟨2, _⟩ => show d.val = 0 + d.val; omega
      | ⟨3, _⟩ => show e.val = 1 + (e.val - 1); omega

/-- The cleaning operations act entry by entry, as the scalar cleaning. -/
theorem cleaned_apply (x : FVec Ideal S16x8192x8 .f32) (k : S16x8192x8.Idx) : cleaned (F := Ideal) x k = clean (x k) := rfl

/-- The affine value at (B, L, d, e). -/
theorem affine_apply (x : FVec Ideal S16x8192x8 .f32) (W B : FVec Ideal S8x64 .f32)
    (b : Fin 16) (l : Fin 8192) (d : Fin 8) (e : Fin 64) :
    affine (F := Ideal) x W B (ix4 b l d e) = clean (x (ix3 b l d)) * W (ix2 d e) + B (ix2 d e) := by
  unfold affine
  show broadcastInDim S16x8192x8x64 ![0, 1, 2, 3] _ (broadcastInDim S16x8192x8x1 ![0, 1, 2] _ (cleaned x)) (ix4 b l d e)
      * broadcastInDim S16x8192x8x64 ![0, 1, 2, 3] _ (broadcastInDim S1x1x8x64 ![2, 3] _ W) (ix4 b l d e)
      + broadcastInDim S16x8192x8x64 ![0, 1, 2, 3] _ (broadcastInDim S1x1x8x64 ![2, 3] _ B) (ix4 b l d e) = _
  rw [entry_spread, table_spread, table_spread, cleaned_apply]

/-- The reference's composed value is the function out of its arguments. -/
theorem result_eq_out (x : FVec Ideal S16x8192x8 .f32) (W B : FVec Ideal S8x64 .f32) :
    result (F := Ideal) x W B = out x W B := by
  funext i
  obtain ⟨b, l, j, rfl⟩ : ∃ (b : Fin 16) (l : Fin 8192) (j : Fin 512), i = ix3 b l j := ⟨i 0, i 1, i 2, eq_ix3 i⟩
  have hb := b.isLt
  have hl := l.isLt
  have hj := j.isLt
  unfold result
  refine (shapeCast_apply _ _ (ix3 b l j) (ix4 b l (feat j) (lane j)) ?_).trans ?_
  · rw [Shape.rowMajor_val_three, Shape.rowMajor_val_four]
    show ((b.val * 8192 + l.val) * 8 + j.val / 64) * 64 + j.val % 64 = (b.val * 8192 + l.val) * 512 + j.val
    omega
  refine (lanes_apply _ _ _ _ b l (feat j) (lane j)).trans ?_
  rw [affine_apply]
  rfl

end Cert.ReferenceIdeal.Entry

end
-- ==== Proof.lean ====
/-
  Time2Vec: a tiled program against its plain reference, equal on the extended reals.

  Both programs map x : [16, 8192, 8], W, b : [8, 64] to [16, 8192, 512]. Write clean for the map that
  replaces +∞ and −∞ by the largest and smallest finite single-precision numbers and keeps every other
  extended real. At (B, L, 64·d + e) both compute

      h_e (clean x[B, L, d] · W[d, e] + b[d, e]),      h_0 = id,   h_e = sin for e ≥ 1.

  The tiled program flattens (B, L) to 131072 rows, walks them in 64 blocks of 2048 rows, and forms each
  block's [2048, 8, 64] value stored as [2048, 512]; the reference forms the [16, 8192, 8, 64] value at once
  and flattens its last two axes. Each side is read entry by entry and found to be the same cell of the
  same three entries (Spec: the cell and the two arrangements; KernelCell, KernelArray, KernelRun: block,
  array, run of the tiled program; RefRun, RefValue: run and value of the reference). No algebraic law
  joins the two sides — they apply the same operations to the same entries — so no input is assumed
  finite for the equality; the two spellings of "x is not a number" (ordered-and-different in one
  program, unordered-or-different in the other) are the same, never true, test on the extended reals.
  The idealization rewrote nothing, so the tiled program's idealized text is its own text.
-/
import proofs.«110526_j2765958939448_2_alg».proof.Defs
import proofs.«110526_j2765958939448_2_alg».proof.Proof.Gen.Kernel
import proofs.«110526_j2765958939448_2_alg».proof.Proof.Gen.Kernel.Frame
import proofs.«110526_j2765958939448_2_alg».proof.Proof.Gen.KernelIdeal
import proofs.«110526_j2765958939448_2_alg».proof.Proof.Gen.KernelIdeal.Frame
import proofs.«110526_j2765958939448_2_alg».proof.Proof.Gen.ReferenceIdeal
import proofs.«110526_j2765958939448_2_alg».proof.Proof.Gen.Pre_finite_inputs
import proofs.«110526_j2765958939448_2_alg».proof.Proof.KernelRun
import proofs.«110526_j2765958939448_2_alg».proof.Proof.RefValue
import Idealize.ShloMosaic.Adequacy
import Idealize.ShloMosaic.Init

noncomputable section

namespace Cert.Proof

open Idealize.ShloMosaic Idealize.SL.Sem

/-- The tiled program as printed runs and keeps its arguments. -/
theorem frame_kernel : Cert.frame_Kernel := fun m ρ _ => Cert.Kernel.Gen.frame m ρ

/-- So does its text read over the extended reals. -/
theorem frame_kernel_ideal : Cert.frame_KernelIdeal := fun m ρ _ => Cert.KernelIdeal.Gen.frame m ρ

/-- The reference runs and keeps its arguments: its run with the result forgotten. -/
theorem frame_reference_ideal : Cert.frame_ReferenceIdeal := fun m ρ _ =>
  (θ_run Cert.ReferenceIdeal.defs _ _).mono (fun _ h c => (h c).2) (Cert.ReferenceIdeal.Straight.run (F := Ideal) m ρ)

/-- Nothing was rewritten. -/
theorem preserves : Cert.preserves_Kernel_KernelIdeal := trivial

/-- From memories agreeing on the arguments both programs end with the function out of the arguments
    in their result buffers. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Straight.run (F := Ideal) m' ρ')
  rw [(hagree c).1, (hagree c).2.1, (hagree c).2.2]
  exact Cert.ReferenceIdeal.Entry.result_eq_out _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
